-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x96x312 : Shape := ⟨4, ![4, 32, 96, 312]⟩
abbrev S_ : Shape := ⟨0, ![]⟩

class Facts : Prop where
  bcast_S_S4x32x96x312 : S_.BroadcastsInDim S4x32x96x312 (![] : Fin 0 → Fin S4x32x96x312.rank)
  reducesTo_S4x32x96x312_S_d0_1_2_3 : S4x32x96x312.ReducesTo [0, 1, 2, 3] S_
  h_S_ : 0 < S_.numel

variable [Facts]

def fn {F : FTy → Type} [FloatOps F] (main_arg0 : FVec F S4x32x96x312 .f32) (main_arg1 : FVec F S4x32x96x312 .f32) : IVec S_ 1 :=
  let main_v0 : FVec F S4x32x96x312 .f32 := Host.absf main_arg0
  let main_cst : FVec F S_ .f32 := constant S_ .f32 0x7F800000#32
  let main_v1 : FVec F S4x32x96x312 .f32 := broadcastInDim S4x32x96x312 ![] bcast_S_S4x32x96x312 main_cst
  let main_v2 : IVec S4x32x96x312 1 := cmpf .olt main_v0 main_v1
  let main_c : IVec S_ 1 := constantI S_ 1 1#1
  let main_v3 : IVec S_ 1 := (fun x v => Host.reduce IntOp.andi x v reducesTo_S4x32x96x312_S_d0_1_2_3 h_S_) main_v2 main_c
  let main_v4 : FVec F S4x32x96x312 .f32 := Host.absf main_arg1
  let main_cst_0 : FVec F S_ .f32 := constant S_ .f32 0x7F800000#32
  let main_v5 : FVec F S4x32x96x312 .f32 := broadcastInDim S4x32x96x312 ![] bcast_S_S4x32x96x312 main_cst_0
  let main_v6 : IVec S4x32x96x312 1 := cmpf .olt main_v4 main_v5
  let main_c_1 : IVec S_ 1 := constantI S_ 1 1#1
  let main_v7 : IVec S_ 1 := (fun x v => Host.reduce IntOp.andi x v reducesTo_S4x32x96x312_S_d0_1_2_3 h_S_) main_v6 main_c_1
  let main_v8 : IVec S_ 1 := andi main_v3 main_v7
  main_v8
-- ==== Kernel.lean ====
abbrev S4x32x96x312 : Shape := ⟨4, ![4, 32, 96, 312]⟩
abbrev S4x32x48x96x312 : Shape := ⟨5, ![4, 32, 48, 96, 312]⟩
abbrev S1x1x96x312 : Shape := ⟨4, ![1, 1, 96, 312]⟩
abbrev S1x1x48x96x312 : Shape := ⟨5, ![1, 1, 48, 96, 312]⟩
abbrev S96x312 : Shape := ⟨2, ![96, 312]⟩
abbrev S1x1x1x96x312 : Shape := ⟨5, ![1, 1, 1, 96, 312]⟩

abbrev nBuf : Space → Nat
  | .hbm => 3
  | .vmem => 6
  | .smem => 0
  | _ => 0

abbrev bufTy : (tb : Table) → Fin (tcTables nBuf tb) → BufTy
  | .hbm, ⟨0, _⟩ => ⟨S4x32x96x312, .f32⟩
  | .hbm, ⟨1, _⟩ => ⟨S4x32x96x312, .f32⟩
  | .hbm, ⟨2, _⟩ => ⟨S4x32x48x96x312, .f32⟩
  | .local _ .vmem, ⟨0, _⟩ => ⟨S1x1x96x312, .f32⟩
  | .local _ .vmem, ⟨1, _⟩ => ⟨S1x1x96x312, .f32⟩
  | .local _ .vmem, ⟨2, _⟩ => ⟨S1x1x96x312, .f32⟩
  | .local _ .vmem, ⟨3, _⟩ => ⟨S1x1x96x312, .f32⟩
  | .local _ .vmem, ⟨4, _⟩ => ⟨S1x1x48x96x312, .f32⟩
  | .local _ .vmem, ⟨5, _⟩ => ⟨S1x1x48x96x312, .f32⟩
  | _, _ => ⟨S4x32x96x312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c48_i32 : BitVec 32 := 48#32
  let v5 : BitVec 32 := Scalar.addi c0_i32 c48_i32
  let c1_i32 : BitVec 32 := 1#32
  ⟨c0_i32, v5, c1_i32⟩
def k0_off1 (k0_t1 : Fin k0_t1_loop.trips) : Fin 5 → Nat :=
  let c0_8 : Index := 0#32
  let c0_9 : Index := 0#32
  let c0_i32 : BitVec 32 := 0#32
  let c1_i32 : BitVec 32 := 1#32
  let arg5 : BitVec 32 := Scf.iv c0_i32 c1_i32 k0_t1
  let v12 : Index := Scalar.indexCast arg5
  let c0_10 : Index := 0#32
  let c0_11 : Index := 0#32
  ![0, 0, v12.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x96x312 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x312 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x48x96x312 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x96x312_S1x1x96x312_0_0_0_0 : ∀ a, (![0, 0, 0, 0] : Fin 4 → Nat) a + S1x1x96x312.size a ≤ S1x1x96x312.size a
  h_S1x1x96x312 : 0 < S1x1x96x312.numel
  shapeCasts_S1x1x96x312_S96x312 : S1x1x96x312.ShapeCasts S96x312
  iota_S96x312_d1_w32 : S96x312.Iotas .tc 32 [1]
  rotates_S96x312_d1 : S96x312.Rotates 1 none
  h_S1x1x1x96x312 : 0 < S1x1x1x96x312.numel
  shapeCasts_S1x1x1x96x312_S96x312 : S1x1x1x96x312.ShapeCasts S96x312
  shapeCasts_S96x312_S1x1x1x96x312 : S96x312.ShapeCasts S1x1x1x96x312
  hrank0 : 0 < grid0.rank
  k0_t1_ok : k0_t1_loop.OK
  k0_off1_inb : ∀ k0_t1 : Fin k0_t1_loop.trips, ∀ a, (k0_off1 k0_t1) a + S1x1x1x96x312.size a ≤ S1x1x48x96x312.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x96x312.size a ≤ S4x32x96x312.size a
  hwx0_0 : ∀ i : grid0.Coords, EltTy.bits .f32 = 32 ∨ (Rect.block (s := S4x32x96x312) S1x1x96x312.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x96x312.size a ≤ S4x32x96x312.size a
  hwx0_1 : ∀ i : grid0.Coords, EltTy.bits .f32 = 32 ∨ (Rect.block (s := S4x32x96x312) S1x1x96x312.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x48x96x312.size a ≤ S4x32x48x96x312.size a
  hwx0_2 : ∀ i : grid0.Coords, EltTy.bits .f32 = 32 ∨ (Rect.block (s := S4x32x48x96x312) S1x1x48x96x312.size (cc0_transform_2 i) (hinb0_2 i)).WholeWords (EltTy.packing .f32)

variable [Facts₀]

abbrev win0_0 : Pipeline.Window sig grid0 :=
  Pipeline.Window.ofSpec (Memref.whole main_arg0) S1x1x96x312.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x96x312.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x48x96x312.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x96x312 : Shape := ⟨4, ![4, 32, 96, 312]⟩
abbrev S48 : Shape := ⟨1, ![48]⟩
abbrev S312 : Shape := ⟨1, ![312]⟩
abbrev S1x312 : Shape := ⟨2, ![1, 312]⟩
abbrev S48x1 : Shape := ⟨2, ![48, 1]⟩
abbrev S48x312 : Shape := ⟨2, ![48, 312]⟩
abbrev S_ : Shape := ⟨0, ![]⟩
abbrev S48x312x1 : Shape := ⟨3, ![48, 312, 1]⟩
abbrev S1 : Shape := ⟨1, ![1]⟩
abbrev S1x1x1 : Shape := ⟨3, ![1, 1, 1]⟩
abbrev S4x32x96x48x312 : Shape := ⟨5, ![4, 32, 96, 48, 312]⟩
abbrev S4x32x96x1x312 : Shape := ⟨5, ![4, 32, 96, 1, 312]⟩
abbrev S1x1x1x48x312 : Shape := ⟨5, ![1, 1, 1, 48, 312]⟩
abbrev S4x32x48x96x312 : Shape := ⟨5, ![4, 32, 48, 96, 312]⟩

abbrev nBuf : Space → Nat
  | .hbm => 52
  | .vmem => 0
  | .smem => 0
  | _ => 0

abbrev bufTy : (tb : Table) → Fin (tcTables nBuf tb) → BufTy
  | .hbm, ⟨0, _⟩ => ⟨S4x32x96x312, .f32⟩
  | .hbm, ⟨1, _⟩ => ⟨S4x32x96x312, .f32⟩
  | .hbm, ⟨2, _⟩ => ⟨S48, .i32⟩
  | .hbm, ⟨3, _⟩ => ⟨S312, .i32⟩
  | .hbm, ⟨4, _⟩ => ⟨S1x312, .i32⟩
  | .hbm, ⟨5, _⟩ => ⟨S48x1, .i32⟩
  | .hbm, ⟨6, _⟩ => ⟨S48x312, .i32⟩
  | .hbm, ⟨7, _⟩ => ⟨S48x312, .i32⟩
  | .hbm, ⟨8, _⟩ => ⟨S48x312, .i32⟩
  | .hbm, ⟨9, _⟩ => ⟨S_, .i32⟩
  | .hbm, ⟨10, _⟩ => ⟨S48x312, .i32⟩
  | .hbm, ⟨11, _⟩ => ⟨S48x312, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S48x312, .i32⟩
  | .hbm, ⟨16, _⟩ => ⟨S48x312, .i32⟩
  | .hbm, ⟨17, _⟩ => ⟨S_, .i32⟩
  | .hbm, ⟨18, _⟩ => ⟨S48x312, .i32⟩
  | .hbm, ⟨19, _⟩ => ⟨S48x312, .i32⟩
  | .hbm, ⟨20, _⟩ => ⟨S_, .i32⟩
  | .hbm, ⟨21, _⟩ => ⟨S48x312, .i32⟩
  | .hbm, ⟨22, _⟩ => ⟨S48x312, .i1⟩
  | .hbm, ⟨23, _⟩ => ⟨S_, .i32⟩
  | .hbm, ⟨24, _⟩ => ⟨S48x312, .i32⟩
  | .hbm, ⟨25, _⟩ => ⟨S48x312, .i32⟩
  | .hbm, ⟨26, _⟩ => ⟨S48x312, .i32⟩
  | .hbm, ⟨27, _⟩ => ⟨S48x312x1, .i32⟩
  | .hbm, ⟨28, _⟩ => ⟨S1, .i32⟩
  | .hbm, ⟨29, _⟩ => ⟨S_, .i32⟩
  | .hbm, ⟨30, _⟩ => ⟨S48x312x1, .i32⟩
  | .hbm, ⟨31, _⟩ => ⟨S48x312x1, .i1⟩
  | .hbm, ⟨32, _⟩ => ⟨S1x1x1, .i32⟩
  | .hbm, ⟨33, _⟩ => ⟨S48x312x1, .i32⟩
  | .hbm, ⟨34, _⟩ => ⟨S48x312x1, .i1⟩
  | .hbm, ⟨35, _⟩ => ⟨S48x312x1, .i1⟩
  | .hbm, ⟨36, _⟩ => ⟨S_, .i1⟩
  | .hbm, ⟨37, _⟩ => ⟨S48x312, .i1⟩
  | .hbm, ⟨38, _⟩ => ⟨S4x32x96x48x312, .f32⟩
  | .hbm, ⟨39, _⟩ => ⟨S4x32x96x48x312, .i1⟩
  | .hbm, ⟨40, _⟩ => ⟨S_, .f32⟩
  | .hbm, ⟨41, _⟩ => ⟨S4x32x96x48x312, .f32⟩
  | .hbm, ⟨42, _⟩ => ⟨S4x32x96x48x312, .f32⟩
  | .hbm, ⟨43, _⟩ => ⟨S4x32x96x1x312, .f32⟩
  | .hbm, ⟨44, _⟩ => ⟨S4x32x96x48x312, .f32⟩
  | .hbm, ⟨45, _⟩ => ⟨S4x32x96x48x312, .f32⟩
  | .hbm, ⟨46, _⟩ => ⟨S1x1x1x48x312, .i1⟩
  | .hbm, ⟨47, _⟩ => ⟨S_, .f32⟩
  | .hbm, ⟨48, _⟩ => ⟨S4x32x96x48x312, .i1⟩
  | .hbm, ⟨49, _⟩ => ⟨S4x32x96x48x312, .f32⟩
  | .hbm, ⟨50, _⟩ => ⟨S4x32x96x48x312, .f32⟩
  | .hbm, ⟨51, _⟩ => ⟨S4x32x48x96x312, .f32⟩
  | _, _ => ⟨S4x32x96x312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_v15 : Ref sig .tc := ⟨.hbm, 50, rfl⟩
abbrev main_v16 : Ref sig .tc := ⟨.hbm, 51, rfl⟩

abbrev nD : Nat := 1
abbrev τ : Topo := Topo.v7x

variable {F : FTy → Type} [FloatOps F]

class Facts₀ : Prop where
  bcast_S312_S1x312_1 : S312.BroadcastsInDim S1x312 (![1] : Fin 1 → Fin S1x312.rank)
  bcast_S48_S48x1_0 : S48.BroadcastsInDim S48x1 (![0] : Fin 1 → Fin S48x1.rank)
  bcast_S1x312_S48x312_0_1 : S1x312.BroadcastsInDim S48x312 (![0, 1] : Fin 2 → Fin S48x312.rank)
  bcast_S48x1_S48x312_0_1 : S48x1.BroadcastsInDim S48x312 (![0, 1] : Fin 2 → Fin S48x312.rank)
  bcast_S_S48x312 : S_.BroadcastsInDim S48x312 (![] : Fin 0 → Fin S48x312.rank)
  bcast_S48x312_S48x312x1_0_1 : S48x312.BroadcastsInDim S48x312x1 (![0, 1] : Fin 2 → Fin S48x312x1.rank)
  bcast_S_S48x312x1 : S_.BroadcastsInDim S48x312x1 (![] : Fin 0 → Fin S48x312x1.rank)
  bcast_S1_S1x1x1_2 : S1.BroadcastsInDim S1x1x1 (![2] : Fin 1 → Fin S1x1x1.rank)
  bcast_S1x1x1_S48x312x1_0_1_2 : S1x1x1.BroadcastsInDim S48x312x1 (![0, 1, 2] : Fin 3 → Fin S48x312x1.rank)
  reducesTo_S48x312x1_S48x312_d2 : S48x312x1.ReducesTo [2] S48x312
  h_S_ : 0 < S_.numel
  bcast_S48x312_S4x32x96x48x312_3_4 : S48x312.BroadcastsInDim S4x32x96x48x312 (![3, 4] : Fin 2 → Fin S4x32x96x48x312.rank)
  bcast_S_S4x32x96x48x312 : S_.BroadcastsInDim S4x32x96x48x312 (![] : Fin 0 → Fin S4x32x96x48x312.rank)
  bcast_S4x32x96x312_S4x32x96x1x312_0_1_2_4 : S4x32x96x312.BroadcastsInDim S4x32x96x1x312 (![0, 1, 2, 4] : Fin 4 → Fin S4x32x96x1x312.rank)
  bcast_S4x32x96x1x312_S4x32x96x48x312_0_1_2_3_4 : S4x32x96x1x312.BroadcastsInDim S4x32x96x48x312 (![0, 1, 2, 3, 4] : Fin 5 → Fin S4x32x96x48x312.rank)
  bcast_S48x312_S1x1x1x48x312_3_4 : S48x312.BroadcastsInDim S1x1x1x48x312 (![3, 4] : Fin 2 → Fin S1x1x1x48x312.rank)
  bcast_S1x1x1x48x312_S4x32x96x48x312_0_1_2_3_4 : S1x1x1x48x312.BroadcastsInDim S4x32x96x48x312 (![0, 1, 2, 3, 4] : Fin 5 → Fin S4x32x96x48x312.rank)
  transposes_S4x32x96x48x312_S4x32x48x96x312_0_1_3_2_4 : S4x32x96x48x312.Transposes [0, 1, 3, 2, 4] S4x32x48x96x312
  gather_S4x32x96x312_S48x312x1_S4x32x96x48x312_012_3_n_n_3_2_432961_wf : GatherDims.WF S4x32x96x312 S48x312x1 S4x32x96x48x312 [0, 1, 2] [3] [] [3] [] 2 ![4, 32, 96, 1]

variable [Facts₀]

def gather_S4x32x96x312_S48x312x1_S4x32x96x48x312_012_3_n_n_3_2_432961 : GatherDims S4x32x96x312 S48x312x1 S4x32x96x48x312 where
  offsetDims := [0, 1, 2]
  collapsedSliceDims := [3]
  operandBatchingDims := []
  startIndicesBatchingDims := []
  startIndexMap := [3]
  indexVectorDim := 2
  sliceSizes := ![4, 32, 96, 1]
  wf := gather_S4x32x96x312_S48x312x1_S4x32x96x48x312_012_3_n_n_3_2_432961_wf

class Facts : Prop extends Facts₀ where

variable [Facts]
-- ==== Proof.CostVolume.lean ====
/-
  The cost volume, as one function of the two feature maps.

  For a left and a right feature map `l, r : [B, C, H, W]` the cost volume `[B, C, D, H, W]` holds, at disparity `d`
  and column `w`, the difference `l[b, c, h, w] - r[b, c, h, w - d]` when the right map has a column `d` places to the
  left of `w` (that is, when `d ≤ w`), and the pad value `1` otherwise. Everything is on the extended reals; the
  only arithmetic is one subtraction per entry, so no finiteness is needed anywhere.
-/
import Idealize.ShloMosaic.PureOps.Ideal
import Idealize.ShloMosaic.Lib.ValueIdx

noncomputable section

namespace Cert.CostVolume

open Idealize.ShloMosaic Idealize.ShloMosaic.ValueIdx

/-- The feature maps' shape `[B, C, H, W] = [4, 32, 96, 312]`. -/
abbrev SFmap : Shape := ⟨4, ![4, 32, 96, 312]⟩
/-- The cost volume's shape `[B, C, D, H, W] = [4, 32, 48, 96, 312]`. -/
abbrev SCost : Shape := ⟨5, ![4, 32, 48, 96, 312]⟩

/-- One entry of the cost volume, by coordinates: the left feature at column `w` minus the right feature at column
    `w - d` when `d ≤ w`; the pad value `1.0` (kept as its binary word) when `w < d`. -/
def costAt (l r : FVec Ideal SFmap .f32) (b : Fin 4) (c : Fin 32) (d : Fin 48) (h : Fin 96) (w : Fin 312) : EReal :=
  if d.val ≤ w.val then l (ix4 b c h w) - r (ix4 b c h ⟨w.val - d.val, by omega⟩)
  else Ideal.ofBits .f32 0x3F800000#32

/-- The cost volume as one function of the two feature maps. -/
def cost (l r : FVec Ideal SFmap .f32) : FVec Ideal SCost .f32 :=
  fun j => costAt l r (j 0) (j 1) (j 2) (j 3) (j 4)

/-- At an index given by its coordinates the cost volume is `costAt`. -/
theorem cost_ix5 (l r : FVec Ideal SFmap .f32) (b : Fin 4) (c : Fin 32) (d : Fin 48) (h : Fin 96) (w : Fin 312) :
    cost l r (ix5 b c d h w) = costAt l r b c d h w := rfl

/-- Where the shifted column exists the entry is the difference. -/
theorem costAt_of_le (l r : FVec Ideal SFmap .f32) (b : Fin 4) (c : Fin 32) (d : Fin 48) (h : Fin 96) (w : Fin 312)
    (hd : d.val ≤ w.val) :
    costAt l r b c d h w = l (ix4 b c h w) - r (ix4 b c h ⟨w.val - d.val, by omega⟩) := if_pos hd

/-- Where it does not the entry is the pad value. -/
theorem costAt_of_lt (l r : FVec Ideal SFmap .f32) (b : Fin 4) (c : Fin 32) (d : Fin 48) (h : Fin 96) (w : Fin 312)
    (hd : w.val < d.val) :
    costAt l r b c d h w = Ideal.ofBits .f32 0x3F800000#32 := if_neg (by omega)

end Cert.CostVolume

end
-- ==== Proof.KernelBlock.lean ====
/-
  What the kernel body leaves in the output's staging block.

  The body runs a loop over the 48 disparities; trip `k` stores ONE row-plane of the staging block `[1, 1, 48, 96, 312]`:
  the unit-stride rectangle at offsets `(0, 0, k, 0, 0)` of extents `[1, 1, 1, 96, 312]`, with a payload that depends only on
  the two loaded input blocks and on `k`. The 48 rectangles tile the block, so the block ends as the one function whose
  plane `k` is trip `k`'s payload. This module proves exactly that, for any float instance: if every trip's payload
  agrees with a function `G` of the block index on its rectangle, the block the body leaves IS `G`.
-/
import proofs.«122404_j59081570125093_2_alg».proof.Proof.Gen.KernelIdeal.Value

noncomputable section

namespace Cert.KernelIdeal.Block

open Cert.KernelIdeal Cert.KernelIdeal.Gen Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl

section Trip

variable (𝒱 : Variants) (c : Dev nD) (bd : Option 𝒱.V) (i : grid0.Coords)
  (arg2 : Memref sig .tc .vmem S1x1x96x312 .f32) (harg2 : arg2.IsWhole)
  (arg3 : Memref sig .tc .vmem S1x1x96x312 .f32) (harg3 : arg3.IsWhole)
  (arg4 : Memref sig .tc .vmem S1x1x48x96x312 .f32) (harg4 : arg4.IsWhole)
  (v0 v2 : Vec F S1x1x96x312 .f32)

/-- Trip `k` of the loop over disparities makes one store: plane `k` of the staging block, with the trip's payload. -/
theorem tripL_eq (k : Fin k0_t1_loop.trips) :
    tripL_k0_t1 (F := F) 𝒱 c bd i arg2 harg2 arg3 harg3 arg4 harg4 v0 v2 k
      = [(⟨Rect.unit (k0_off1 k) S1x1x1x96x312.size (k0_off1_inb k), k0_pay1 v0 v2 k⟩ : View.Piece (Elt F) S1x1x48x96x312 .f32)] := by
  unfold tripL_k0_t1 trip_k0_t1
  rfl

/-- So every store of the trips before `n` carries, on its rectangle, any function `G` that every trip's payload agrees
    with on the trip's rectangle. -/
theorem pieces_before (G : S1x1x48x96x312.Idx → Elt F .f32)
    (hG : ∀ (k : Fin k0_t1_loop.trips) (x : (Rect.unit (s := S1x1x48x96x312) (k0_off1 k) S1x1x1x96x312.size (k0_off1_inb k)).shape.Idx),
      k0_pay1 v0 v2 k x = G ((Rect.unit (s := S1x1x48x96x312) (k0_off1 k) S1x1x1x96x312.size (k0_off1_inb k)).emb x)) :
    ∀ n : ℕ, ∀ p ∈ pb_k0_t1 (F := F) 𝒱 c bd i arg2 harg2 arg3 harg3 arg4 harg4 v0 v2 n,
      ∀ x : p.1.shape.Idx, p.2 x = G (p.1.emb x)
  | 0, p, hp => by rw [pb_k0_t1.eq_1] at hp; exact absurd hp List.not_mem_nil
  | n + 1, p, hp => by
    rw [pb_k0_t1.eq_2] at hp
    unfold pb_k0_t1Step at hp
    split at hp
    · rename_i h
      rw [List.mem_append, tripL_eq] at hp
      rcases hp with hp | hp
      · rw [List.mem_singleton] at hp
        subst hp
        exact hG ⟨n, h⟩
      · exact pieces_before G hG n p hp
    · exact pieces_before G hG n p hp

end Trip

/-- THE STAGING BLOCK the body leaves, from input blocks `x0`, `x1`: any function `G` of the block index that agrees,
    plane by plane, with the trips' payloads. (The loop's 48 planes tile the block, so nothing else is left in it.) -/
theorem out_eq (c : Dev nD) (i : grid0.Coords)
    (arg2 : Memref sig .tc .vmem S1x1x96x312 .f32) (harg2 : arg2.IsWhole)
    (arg3 : Memref sig .tc .vmem S1x1x96x312 .f32) (harg3 : arg3.IsWhole)
    (arg4 : Memref sig .tc .vmem S1x1x48x96x312 .f32) (harg4 : arg4.IsWhole)
    (x0 x1 : Vec F S1x1x96x312 .f32) (G : S1x1x48x96x312.Idx → Elt F .f32)
    (hG : ∀ (k : Fin k0_t1_loop.trips) (x : (Rect.unit (s := S1x1x48x96x312) (k0_off1 k) S1x1x1x96x312.size (k0_off1_inb k)).shape.Idx),
      k0_pay1 x0 x1 k x = G ((Rect.unit (s := S1x1x48x96x312) (k0_off1 k) S1x1x1x96x312.size (k0_off1_inb k)).emb x)) :
    out0_A_2 (F := F) c i arg2 harg2 arg3 harg3 arg4 harg4 x0 x1 = G := by
  funext y
  unfold out0_A_2
  rw [View.read_writes_junk_eq_canon]
  refine View.canon_apply_of_pieces G _ ?_ y (cover0_A_2 c i arg2 harg2 arg3 harg3 arg4 harg4 x0 x1 y)
  unfold kernelRun0_A
  dsimp only
  simp only [View.readAt_eq_ld, harg2.read_unread, harg3.read_unread, View.ld_unit_zero (S := S1x1x96x312) hz4]
  exact pieces_before Variants.none c none i arg2 harg2 arg3 harg3 arg4 harg4 x0 x1 G hG _

end Cert.KernelIdeal.Block

end
-- ==== Proof.KernelPayload.lean ====
/-
  One trip's payload, read at an index, on the extended reals.

  Trip `k` of the loop over disparities computes, from the two loaded input blocks `x0` (left) and `x1` (right) viewed
  as `[96, 312]` matrices,   select (column ≥ k) (x0 - rotate x1 by k along the columns) 1.0.
  A rotation by `k` along an axis of extent 312 reads column `(w + 312 - k mod 312) mod 312`, which is `w - k` whenever
  `k ≤ w` — exactly the columns the select keeps; on the columns `w < k`, where the rotation would wrap around, the
  select takes the pad value instead. The column counter and `k` are small non-negative numbers, so the signed 32-bit
  comparison is the comparison of naturals. Hence at row `h`, column `w` the payload is
      x0[h, w] - x1[h, w - k]   if k ≤ w,      1.0   otherwise,
  and the 48 payloads are the planes of ONE function of the staging block's index (`blockOf`).
-/
import proofs.«122404_j59081570125093_2_alg».proof.Proof.Gen.KernelIdeal.Skeleton
import Idealize.ShloMosaic.PureOps.Ideal
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The words -/

/-- The loop counts from 0 in steps of 1: at trip `k` the induction variable is the word `k`. -/
theorem iv_eq (k : ℕ) : Scf.iv 0#32 1#32 k = BitVec.ofNat 32 k := by
  simp [Scf.iv]

/-- The loop makes at most 48 trips. -/
theorem trips_le : k0_t1_loop.trips ≤ 48 := k0_t1_abs.2.1

/-- On naturals below `2^31` the signed comparison of their 32-bit words is the comparison of the naturals. -/
theorem sle_ofNat (a b : ℕ) (ha : a < 2147483648) (hb : b < 2147483648) :
    (BitVec.ofNat 32 a).sle (BitVec.ofNat 32 b) = decide (a ≤ b) := by
  have ha' : (BitVec.ofNat 32 a).toNat = a := by rw [BitVec.toNat_ofNat]; omega
  have hb' : (BitVec.ofNat 32 b).toNat = b := by rw [BitVec.toNat_ofNat]; omega
  have ea : (BitVec.ofNat 32 a).toInt = (a : ℤ) := by
    rw [BitVec.toInt_eq_toNat_of_lt (by rw [ha']; omega), ha']
  have eb : (BitVec.ofNat 32 b).toInt = (b : ℤ) := by
    rw [BitVec.toInt_eq_toNat_of_lt (by rw [hb']; omega), hb']
  unfold BitVec.sle
  rw [ea, eb]
  simp

/-! ## One plane, and the block of 48 planes -/

/-- Plane `d` of the staging block at row `h`, column `w`, from the input blocks `x0` (left) and `x1` (right): the
    difference with the right block read `d` columns to the left where that column exists, the pad value otherwise. -/
def planeAt (x0 x1 : Vec Ideal S1x1x96x312 .f32) (d : Fin 48) (h : Fin 96) (w : Fin 312) : EReal :=
  if d.val ≤ w.val then
    x0 (ix4 (0 : Fin 1) (0 : Fin 1) h w) - x1 (ix4 (0 : Fin 1) (0 : Fin 1) h ⟨w.val - d.val, by omega⟩)
  else Ideal.ofBits .f32 0x3F800000#32

/-- A plane entry depends on its coordinates' values only. -/
theorem planeAt_congr (x0 x1 : Vec Ideal S1x1x96x312 .f32) (d d' : Fin 48) (h h' : Fin 96) (w w' : Fin 312)
    (hd : d.val = d'.val) (hh : h.val = h'.val) (hw : w.val = w'.val) :
    planeAt x0 x1 d h w = planeAt x0 x1 d' h' w' := by
  obtain rfl := Fin.ext hd
  obtain rfl := Fin.ext hh
  obtain rfl := Fin.ext hw
  rfl

/-- The staging block `[1, 1, 48, 96, 312]` as one function of its index: plane `y 2` at row `y 3`, column `y 4`. -/
def blockOf (x0 x1 : Vec Ideal S1x1x96x312 .f32) : S1x1x48x96x312.Idx → EReal :=
  fun y => planeAt x0 x1 (y 2) (y 3) (y 4)

/-! ## Trip `k`'s payload is plane `k` -/

/-- Trip `k`'s payload at row `h`, column `w` (the three leading coordinates range over unit axes). -/
theorem pay_apply (x0 x1 : Vec Ideal S1x1x96x312 .f32) (k : Fin k0_t1_loop.trips) (hk : k.val < 48)
    (u0 u1 u2 : Fin 1) (h : Fin 96) (w : Fin 312) :
    k0_pay1 (F := Ideal) x0 x1 k (ix5 u0 u1 u2 h w) = planeAt x0 x1 ⟨k.val, hk⟩ h w := by
  unfold k0_pay1
  -- the store's `[1, 1, 1, 96, 312]` view of the `[96, 312]` value
  refine (shapeCast_apply _ _ (ix5 u0 u1 u2 h w) (ix2 h w) ?_).trans ?_
  · rw [Shape.rowMajor_val_two, Shape.rowMajor_val_five]
    show h.val * 312 + w.val = ((((u0.val * 1 + u1.val) * 1 + u2.val) * 96 + h.val) * 312 + w.val)
    omega
  -- the select, entry by entry
  show Scalar.select (IntOp.cmpi .sge (iota .tc S96x312 32 [1] iota_S96x312_d1_w32 (ix2 h w)) (Scf.iv 0#32 1#32 k.val))
        (shapeCast S96x312 x0 shapeCasts_S1x1x96x312_S96x312 (ix2 h w)
          - dynamicRotate 1 (Scf.iv 0#32 1#32 k.val) none (shapeCast S96x312 x1 shapeCasts_S1x1x96x312_S96x312) rotates_S96x312_d1 (ix2 h w))
        (Ideal.ofBits .f32 0x3F800000#32) = _
  rw [iota_single_apply, iv_eq]
  -- the condition: column `w` against `k`, as signed words
  have hc : IntOp.cmpi .sge (BitVec.ofNat 32 w.val) (BitVec.ofNat 32 k.val) = BitVec.ofBool (decide (k.val ≤ w.val)) := by
    show BitVec.ofBool ((BitVec.ofNat 32 k.val).sle (BitVec.ofNat 32 w.val)) = _
    rw [sle_ofNat _ _ (by omega) (by have := w.isLt; omega)]
  show Scalar.select (IntOp.cmpi .sge (BitVec.ofNat 32 w.val) (BitVec.ofNat 32 k.val)) _ _ = _
  rw [hc]
  unfold planeAt
  by_cases hkw : k.val ≤ w.val
  · rw [if_pos hkw, decide_eq_true hkw]
    show Scalar.select 1#1 _ _ = _
    rw [select_one]
    congr 1
    · -- the left block at `(h, w)`
      exact shapeCast_apply _ _ (ix2 h w) (ix4 (0 : Fin 1) (0 : Fin 1) h w) (by
        rw [Shape.rowMajor_val_four, Shape.rowMajor_val_two]
        show (((0 * 1 + 0) * 96 + h.val) * 312 + w.val) = h.val * 312 + w.val
        omega)
    · -- the right block rotated by `k`: column `(w + 312 - k mod 312) mod 312 = w - k`
      unfold dynamicRotate
      dsimp only
      have hkn : (BitVec.ofNat 32 k.val).toNat = k.val := by rw [BitVec.toNat_ofNat]; omega
      refine shapeCast_apply _ _ _ (ix4 (0 : Fin 1) (0 : Fin 1) h ⟨w.val - k.val, by omega⟩) ?_
      rw [Shape.rowMajor_val_four, Shape.rowMajor_val_two]
      beta_reduce
      rw [if_neg (by decide : ¬ ((0 : Fin S96x312.rank) = 1)), if_pos rfl]
      show (((0 * 1 + 0) * 96 + h.val) * 312 + (w.val - k.val))
        = h.val * 312 + (w.val + 312 - ((BitVec.ofNat 32 k.val).toNat + 0) % 312) % 312
      rw [hkn]
      have := w.isLt
      omega
  · rw [if_neg hkw, decide_eq_false hkw]
    exact select_zero _ _

/-- So trip `k`'s payload is, on the trip's rectangle (plane `k` of the staging block), the block function. -/
theorem pay_block (x0 x1 : Vec Ideal S1x1x96x312 .f32) (k : Fin k0_t1_loop.trips)
    (x : (Rect.unit (s := S1x1x48x96x312) (k0_off1 k) S1x1x1x96x312.size (k0_off1_inb k)).shape.Idx) :
    k0_pay1 (F := Ideal) x0 x1 k x
      = blockOf x0 x1 ((Rect.unit (s := S1x1x48x96x312) (k0_off1 k) S1x1x1x96x312.size (k0_off1_inb k)).emb x) := by
  have hk : k.val < 48 := lt_of_lt_of_le k.isLt trips_le
  obtain ⟨u0, u1, u2, h, w, rfl⟩ : ∃ (u0 u1 u2 : Fin 1) (h : Fin 96) (w : Fin 312), x = ix5 u0 u1 u2 h w :=
    ⟨x 0, x 1, x 2, x 3, x 4, eq_ix5 x⟩
  rw [pay_apply x0 x1 k hk u0 u1 u2 h w]
  unfold blockOf
  refine planeAt_congr x0 x1 _ _ _ _ _ _ ?_ ?_ ?_
  · show k.val = k0_off1 k 2 + 1 * u2.val
    rw [k0_off1_eq]
    show k.val = k.val + 1 * u2.val
    omega
  · show h.val = k0_off1 k 3 + 1 * h.val
    rw [k0_off1_eq]
    show h.val = 0 + 1 * h.val
    omega
  · show w.val = k0_off1 k 4 + 1 * w.val
    rw [k0_off1_eq]
    show w.val = 0 + 1 * w.val
    omega

end Cert.KernelIdeal.Payload

end
-- ==== Proof.KernelValue.lean ====
/-
  The kernel's result array, as the cost volume of its two arguments.

  The grid is `(b, c) ∈ [0, 4) × [0, 32)`. At point `(b, c)` the two input windows stage the `[96, 312]` slabs
  `l[b, c, :, :]` and `r[b, c, :, :]`, the body leaves in the output's staging block the 48 planes of `blockOf` of those
  slabs, and the output window writes that block back as `out[b, c, :, :, :]`. So what point `(b, c)` writes back is
  block `(b, c)` of the cost volume of the whole arguments; the 128 blocks tile the result array; hence the array ends
  as the cost volume.
-/
import proofs.«122404_j59081570125093_2_alg».proof.Proof.Gen.KernelIdeal.Value
import proofs.«122404_j59081570125093_2_alg».proof.Proof.KernelBlock
import proofs.«122404_j59081570125093_2_alg».proof.Proof.KernelPayload
import proofs.«122404_j59081570125093_2_alg».proof.Proof.CostVolume
import Idealize.ShloMosaic.Lib.Pipeline.Value

noncomputable section

namespace Cert.KernelIdeal.CostValue

open Cert.KernelIdeal Cert.KernelIdeal.Gen Cert.KernelIdeal.Value Cert.KernelIdeal.Payload
open Idealize.ShloMosaic Idealize.ShloMosaic.TcCoe Idealize.ShloMosaic.ValueIdx Idealize.SL.Sem
open Idealize.ShloMosaic.Pipeline (Dat)
open Cert.CostVolume

/-! ## One slab pair against the whole arguments -/

/-- A cost-volume entry depends on its coordinates' values only. -/
theorem costAt_congr (l r : FVec Ideal SFmap .f32) (b b' : Fin 4) (c c' : Fin 32) (d d' : Fin 48) (h h' : Fin 96) (w w' : Fin 312)
    (hb : b.val = b'.val) (hc : c.val = c'.val) (hd : d.val = d'.val) (hh : h.val = h'.val) (hw : w.val = w'.val) :
    costAt l r b c d h w = costAt l r b' c' d' h' w' := by
  obtain rfl := Fin.ext hb
  obtain rfl := Fin.ext hc
  obtain rfl := Fin.ext hd
  obtain rfl := Fin.ext hh
  obtain rfl := Fin.ext hw
  rfl

/-- If `x0`, `x1` are the slabs `l[b, c, :, :]`, `r[b, c, :, :]`, plane `d` of their block is the cost volume's
    `[b, c, d, :, :]`. -/
theorem plane_eq_cost (l r : FVec Ideal SFmap .f32) (x0 x1 : Vec Ideal S1x1x96x312 .f32) (b : Fin 4) (c : Fin 32)
    (hx0 : ∀ (h : Fin 96) (w : Fin 312), x0 (ix4 (0 : Fin 1) (0 : Fin 1) h w) = l (ix4 b c h w))
    (hx1 : ∀ (h : Fin 96) (w : Fin 312), x1 (ix4 (0 : Fin 1) (0 : Fin 1) h w) = r (ix4 b c h w))
    (d : Fin 48) (h : Fin 96) (w : Fin 312) :
    planeAt x0 x1 d h w = costAt l r b c d h w := by
  unfold planeAt costAt
  by_cases hd : d.val ≤ w.val
  · rw [if_pos hd, if_pos hd, hx0, hx1]
  · rw [if_neg hd, if_neg hd]

variable (m : (ℓ : Loc nD τ sig) → Buf (Elt Ideal) ℓ) (ρ : Dev nD → PrngReg)

/-! ## The index maps over the grid -/

/-- The printed index maps, decided over the 128 grid points: the two input windows sit at the output window's
    `(b, c)` with zero on their slab axes; the output window has zero on its three block axes; `b < 4`, `c < 32`. -/
theorem idx_facts : ∀ t : Fin cfg0.N,
    win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0
    ∧ win0_2.index t (0 : Fin 5) < 4 ∧ win0_2.index t (1 : Fin 5) < 32 :=
  (by decide +kernel : ∀ t : Fin grid0.N, _)

/-- Every `(b, c)` is some grid point's block. -/
theorem idx_onto : ∀ (q0 : Fin 4) (q1 : Fin 32), ∃ t : Fin cfg0.N, win0_2.index t = ![q0.val, q1.val, 0, 0, 0] :=
  (by decide +kernel : ∀ (q0 : Fin 4) (q1 : Fin 32), ∃ t : Fin grid0.N, win0_2.index t = ![q0.val, q1.val, 0, 0, 0])

/-! ## The input blocks are slabs of the arguments -/

/-- The left window's block at point `t` is the slab `[b, c, :, :]` of the first argument. -/
theorem iblk0_apply (c : Dev nD) (t : Fin cfg0.N) (b : Fin 4) (cc : Fin 32)
    (h0 : win0_0.index t (0 : Fin 4) = b.val) (h1 : win0_0.index t (1 : Fin 4) = cc.val)
    (h2 : win0_0.index t (2 : Fin 4) = 0) (h3 : win0_0.index t (3 : Fin 4) = 0) (h : Fin 96) (w : Fin 312) :
    (iblk m c 0 t : Vec Ideal S1x1x96x312 .f32) (ix4 (0 : Fin 1) (0 : Fin 1) h w)
      = (V m c main_arg0 : FVec Ideal SFmap .f32) (ix4 b cc h w) := by
  unfold iblk
  rw [View.read_apply]
  show V m c main_arg0 _ = V m c main_arg0 _
  congr 1
  funext a
  apply Fin.ext
  match a with
  | ⟨0, _⟩ => show win0_0.index t (0 : Fin 4) * 1 + 1 * 0 = b.val; omega
  | ⟨1, _⟩ => show win0_0.index t (1 : Fin 4) * 1 + 1 * 0 = cc.val; omega
  | ⟨2, _⟩ => show win0_0.index t (2 : Fin 4) * 96 + 1 * h.val = h.val; omega
  | ⟨3, _⟩ => show win0_0.index t (3 : Fin 4) * 312 + 1 * w.val = w.val; omega

/-- The right window's block at point `t` is the slab `[b, c, :, :]` of the second argument. -/
theorem iblk1_apply (c : Dev nD) (t : Fin cfg0.N) (b : Fin 4) (cc : Fin 32)
    (h0 : win0_1.index t (0 : Fin 4) = b.val) (h1 : win0_1.index t (1 : Fin 4) = cc.val)
    (h2 : win0_1.index t (2 : Fin 4) = 0) (h3 : win0_1.index t (3 : Fin 4) = 0) (h : Fin 96) (w : Fin 312) :
    (iblk m c 1 t : Vec Ideal S1x1x96x312 .f32) (ix4 (0 : Fin 1) (0 : Fin 1) h w)
      = (V m c main_arg1 : FVec Ideal SFmap .f32) (ix4 b cc h w) := by
  unfold iblk
  rw [View.read_apply]
  show V m c main_arg1 _ = V m c main_arg1 _
  congr 1
  funext a
  apply Fin.ext
  match a with
  | ⟨0, _⟩ => show win0_1.index t (0 : Fin 4) * 1 + 1 * 0 = b.val; omega
  | ⟨1, _⟩ => show win0_1.index t (1 : Fin 4) * 1 + 1 * 0 = cc.val; omega
  | ⟨2, _⟩ => show win0_1.index t (2 : Fin 4) * 96 + 1 * h.val = h.val; omega
  | ⟨3, _⟩ => show win0_1.index t (3 : Fin 4) * 312 + 1 * w.val = w.val; omega

/-! ## What a point writes back, the cover, the array -/

/-- WHAT POINT `t` WRITES BACK is block `t` of the cost volume of the argument arrays. -/
theorem flushed_eq (c : Dev nD) (t : Fin cfg0.N) :
    (dats m 0 c).flushed 2 t
      = ((cfg0.win 2).blk t).view.read (Elt Ideal) (cost (V m c main_arg0) (V m c main_arg1)) := by
  refine (flushed2_A m c t).trans ?_
  rw [Cert.KernelIdeal.Block.out_eq c (grid0.coords t) (ms0_0 t) (hs0_0 t) (ms0_1 t) (hs0_1 t) (ms0_2 t) (hs0_2 t)
    (iblk m c 0 t) (iblk m c 1 t) (blockOf (iblk m c 0 t) (iblk m c 1 t)) (pay_block (iblk m c 0 t) (iblk m c 1 t))]
  obtain ⟨e00, e01, e02, e03, e10, e11, e12, e13, e22, e23, e24, hb, hc⟩ := idx_facts t
  funext j
  show planeAt (iblk m c 0 t) (iblk m c 1 t) (j 2) (j 3) (j 4)
    = costAt (V m c main_arg0) (V m c main_arg1)
        ((((cfg0.win 2).blk t).view.emb j) 0) ((((cfg0.win 2).blk t).view.emb j) 1) ((((cfg0.win 2).blk t).view.emb j) 2)
        ((((cfg0.win 2).blk t).view.emb j) 3) ((((cfg0.win 2).blk t).view.emb j) 4)
  refine (plane_eq_cost (V m c main_arg0) (V m c main_arg1) (iblk m c 0 t) (iblk m c 1 t)
    ⟨win0_2.index t (0 : Fin 5), hb⟩ ⟨win0_2.index t (1 : Fin 5), hc⟩
    (iblk0_apply m c t _ _ e00 e01 e02 e03) (iblk1_apply m c t _ _ e10 e11 e12 e13) (j 2) (j 3) (j 4)).trans ?_
  have j0 : (j 0).val < 1 := (j 0).isLt
  have j1 : (j 1).val < 1 := (j 1).isLt
  refine costAt_congr _ _ _ _ _ _ _ _ _ _ _ _ ?_ ?_ ?_ ?_ ?_
  · show win0_2.index t (0 : Fin 5) = win0_2.index t (0 : Fin 5) * 1 + 1 * (j 0).val; omega
  · show win0_2.index t (1 : Fin 5) = win0_2.index t (1 : Fin 5) * 1 + 1 * (j 1).val; omega
  · show (j 2).val = win0_2.index t (2 : Fin 5) * 48 + 1 * (j 2).val; omega
  · show (j 3).val = win0_2.index t (3 : Fin 5) * 96 + 1 * (j 3).val; omega
  · show (j 4).val = win0_2.index t (4 : Fin 5) * 312 + 1 * (j 4).val; omega

/-- An index of the result array is in point `t`'s block iff each coordinate is in the block's range on its axis. -/
theorem mem_blk (t : Fin cfg0.N) (i : S4x32x48x96x312.Idx) :
    i ∈ ((cfg0.win 2).blk t).view.set ↔ ∀ a : Fin 5, win0_2.index t a * S1x1x48x96x312.size a ≤ (i a).val
      ∧ (i a).val < win0_2.index t a * S1x1x48x96x312.size a + S1x1x48x96x312.size a := by
  show i ∈ ((View.whole main_v0).slice (win0_2.rect t)).set ↔ _
  rw [View.set_slice_whole, Rect.mem_set_unit]
  exact Iff.rfl

/-- The 128 blocks cover the result array: index `(b, c, d, h, w)` is in the block of the point at `(b, c)`. -/
theorem cover (i : S4x32x48x96x312.Idx) :
    ∃ t : Fin cfg0.N, (cfg0.win 2).flush t = true ∧ i ∈ ((cfg0.win 2).blk t).view.set := by
  have i0 : (i 0).val < 4 := (i 0).isLt
  have i1 : (i 1).val < 32 := (i 1).isLt
  have i2 : (i 2).val < 48 := (i 2).isLt
  have i3 : (i 3).val < 96 := (i 3).isLt
  have i4 : (i 4).val < 312 := (i 4).isLt
  obtain ⟨t, ht⟩ := idx_onto ⟨(i 0).val, i0⟩ ⟨(i 1).val, i1⟩
  have q0 : win0_2.index t (0 : Fin 5) = (i 0).val := congrFun ht 0
  have q1 : win0_2.index t (1 : Fin 5) = (i 1).val := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 48 ≤ (i 2).val ∧ (i 2).val < win0_2.index t (2 : Fin 5) * 48 + 48; omega
  | ⟨3, _⟩ => show win0_2.index t (3 : Fin 5) * 96 ≤ (i 3).val ∧ (i 3).val < win0_2.index t (3 : Fin 5) * 96 + 96; omega
  | ⟨4, _⟩ => show win0_2.index t (4 : Fin 5) * 312 ≤ (i 4).val ∧ (i 4).val < win0_2.index t (4 : Fin 5) * 312 + 312; omega

/-- THE RESULT ARRAY after the run is the cost volume of the argument arrays. -/
theorem final (c : Dev nD) :
    (dats m 0 c).arrAt 2 cfg0.N
      = cost (m ((c : Thread nD τ).loc main_arg0)) (m ((c : Thread nD τ).loc main_arg1)) :=
  (dats m 0 c).arrAt_eq_of_cover 2 (cost (V m c main_arg0) (V m c main_arg1)) (fun t _ => flushed_eq m c t) cover

/-- The kernel's run, read: the result array at the cost volume of the arguments, the arguments unchanged. -/
theorem run : θ_run defs (onTc (τ := τ) (main (F := Ideal))) ⟨m, fun _ => 0, ρ⟩ fun r => ∀ c : Dev nD,
      r.2.mem ((c : Thread nD τ).loc main_v0)
          = cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.CostValue

end
-- ==== Proof.RefRun.lean ====
/-
  The reference program's run, as a straight line of host operations.

  The reference computes the cost volume in fifty tensor operations: an integer index table `w - d` over the
  disparities and the columns, its sign test, its clamp to the columns `[0, 311]`, the gather of the right feature map
  along its last axis at the clamped table (with the gather's own wrap of a negative index and its in-range guard),
  the subtraction from the left feature map broadcast over the disparities, the choice of the pad value where the
  index is negative, and the exchange of the disparity and row axes. Three of its steps are module-local functions
  (the clamp, the gather with its guards — which itself calls a select —, and the last select); a call means the
  callee's body on the call's buffers, so the program is one line of operations, listed here in order, and its run is
  the fold of their results over the launch contents.
-/
import proofs.«122404_j59081570125093_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The program's fifty operations, in order: twelve of its own (the two iotas, their broadcasts to the table's
    shape, the difference, the zero and the sign test, the clamp's two bounds); the clamp's six; the gather function's
    twenty-three (the wrap of a negative index: a comparison with zero, the index plus 312 and the select between them,
    which is a function of its own; the index as a table of one-coordinate vectors; the guard `0 ≤ i ≤ 311` reduced
    by conjunction over the unit axis; the gather; the guard broadcast; the fill constant and the select); the left
    map's two broadcasts, the subtraction, the sign test's broadcast and the pad constant; the last select's three;
    the transpose. -/
abbrev ops : List (HloOp τ sig (Elt F)) :=
  [ nullary main_v0 (iotaInDim S48 32 0),
    nullary main_v1 (iotaInDim S312 32 0),
    unary main_v1 main_v2 (broadcastInDim S1x312 ![1] bcast_S312_S1x312_1 : (⟨S312, .i32⟩ : BufTy).Contents (Elt F) → (⟨S1x312, .i32⟩ : BufTy).Contents (Elt F)),
    unary main_v0 main_v3 (broadcastInDim S48x1 ![0] bcast_S48_S48x1_0 : (⟨S48, .i32⟩ : BufTy).Contents (Elt F) → (⟨S48x1, .i32⟩ : BufTy).Contents (Elt F)),
    unary main_v2 main_v4 (broadcastInDim S48x312 ![0, 1] bcast_S1x312_S48x312_0_1 : (⟨S1x312, .i32⟩ : BufTy).Contents (Elt F) → (⟨S48x312, .i32⟩ : BufTy).Contents (Elt F)),
    unary main_v3 main_v5 (broadcastInDim S48x312 ![0, 1] bcast_S48x1_S48x312_0_1 : (⟨S48x1, .i32⟩ : BufTy).Contents (Elt F) → (⟨S48x312, .i32⟩ : BufTy).Contents (Elt F)),
    binary main_v4 main_v5 main_v6 (subi : (⟨S48x312, .i32⟩ : BufTy).Contents (Elt F) → (⟨S48x312, .i32⟩ : BufTy).Contents (Elt F) → (⟨S48x312, .i32⟩ : BufTy).Contents (Elt F)),
    nullary main_c (constantI S_ 32 0#32),
    unary main_c main_v7 (broadcastInDim S48x312 ![] bcast_S_S48x312 : (⟨S_, .i32⟩ : BufTy).Contents (Elt F) → (⟨S48x312, .i32⟩ : BufTy).Contents (Elt F)),
    binary main_v6 main_v7 main_v8 (cmpi .sge : (⟨S48x312, .i32⟩ : BufTy).Contents (Elt F) → (⟨S48x312, .i32⟩ : BufTy).Contents (Elt F) → (⟨S48x312, .i1⟩ : BufTy).Contents (Elt F)),
    nullary main_c_0 (constantI S_ 32 0#32),
    nullary main_c_1 (constantI S_ 32 311#32),
    TRef.unary (.of main_c_0 : TRef sig ⟨S_, .i32⟩) main_call0.v0 id,
    TRef.unary main_call0.v0 main_call0.v1 (broadcastInDim S48x312 ![] bcast_S_S48x312),
    TRef.binary main_call0.v1 (.of main_v6 : TRef sig ⟨S48x312, .i32⟩) main_call0.v2 maxsi,
    TRef.unary (.of main_c_1 : TRef sig ⟨S_, .i32⟩) main_call0.v3 id,
    TRef.unary main_call0.v3 main_call0.v4 (broadcastInDim S48x312 ![] bcast_S_S48x312),
    TRef.binary main_call0.v4 main_call0.v2 main_call0.v5 minsi,
    TRef.nullary main_call1.c (constantI S_ 32 0#32),
    TRef.unary main_call1.c main_call1.v0 (broadcastInDim S48x312 ![] bcast_S_S48x312),
    TRef.binary (.of main_v9 : TRef sig ⟨S48x312, .i32⟩) main_call1.v0 main_call1.v1 (cmpi .slt),
    TRef.nullary main_call1.c_0 (constantI S_ 32 312#32),
    TRef.unary main_call1.c_0 main_call1.v2 (broadcastInDim S48x312 ![] bcast_S_S48x312),
    TRef.binary (.of main_v9 : TRef sig ⟨S48x312, .i32⟩) main_call1.v2 main_call1.v3 addi,
    TRef.ternary main_call1.v1 main_call1.v3 (.of main_v9 : TRef sig ⟨S48x312, .i32⟩) main_call1.call0.v0 select,
    TRef.unary main_call1.call0.v0 main_call1.v5 (broadcastInDim S48x312x1 ![0, 1] bcast_S48x312_S48x312x1_0_1),
    TRef.nullary main_call1.c_1 (constantI S1 32 311#32),
    TRef.nullary main_call1.c_2 (constantI S_ 32 0#32),
    TRef.unary main_call1.c_2 main_call1.v6 (broadcastInDim S48x312x1 ![] bcast_S_S48x312x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S48x312x1 ![0, 1, 2] bcast_S1x1x1_S48x312x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S48x312x1_S48x312_d2 h_S_),
    TRef.binary (.of main_arg1 : TRef sig ⟨S4x32x96x312, .f32⟩) main_call1.v5 main_call1.v13 (fun x i => Host.gather gather_S4x32x96x312_S48x312x1_S4x32x96x48x312_012_3_n_n_3_2_432961 x i),
    TRef.unary main_call1.v12 main_call1.v14 (broadcastInDim S4x32x96x48x312 ![3, 4] bcast_S48x312_S4x32x96x48x312_3_4),
    TRef.nullary main_call1.cst (constant S_ .f32 0x7FC00000#32),
    TRef.unary main_call1.cst main_call1.v15 (broadcastInDim S4x32x96x48x312 ![] bcast_S_S4x32x96x48x312),
    TRef.ternary main_call1.v14 main_call1.v13 main_call1.v15 main_call1.v16 select,
    unary main_arg0 main_v11 (broadcastInDim S4x32x96x1x312 ![0, 1, 2, 4] bcast_S4x32x96x312_S4x32x96x1x312_0_1_2_4 : (⟨S4x32x96x312, .f32⟩ : BufTy).Contents (Elt F) → (⟨S4x32x96x1x312, .f32⟩ : BufTy).Contents (Elt F)),
    unary main_v11 main_v12 (broadcastInDim S4x32x96x48x312 ![0, 1, 2, 3, 4] bcast_S4x32x96x1x312_S4x32x96x48x312_0_1_2_3_4 : (⟨S4x32x96x1x312, .f32⟩ : BufTy).Contents (Elt F) → (⟨S4x32x96x48x312, .f32⟩ : BufTy).Contents (Elt F)),
    binary main_v12 main_v10 main_v13 (subf : (⟨S4x32x96x48x312, .f32⟩ : BufTy).Contents (Elt F) → (⟨S4x32x96x48x312, .f32⟩ : BufTy).Contents (Elt F) → (⟨S4x32x96x48x312, .f32⟩ : BufTy).Contents (Elt F)),
    unary main_v8 main_v14 (broadcastInDim S1x1x1x48x312 ![3, 4] bcast_S48x312_S1x1x1x48x312_3_4 : (⟨S48x312, .i1⟩ : BufTy).Contents (Elt F) → (⟨S1x1x1x48x312, .i1⟩ : BufTy).Contents (Elt F)),
    nullary main_cst (constant S_ .f32 0x3F800000#32),
    TRef.unary (.of main_v14 : TRef sig ⟨S1x1x1x48x312, .i1⟩) main_call2.v0 (broadcastInDim S4x32x96x48x312 ![0, 1, 2, 3, 4] bcast_S1x1x1x48x312_S4x32x96x48x312_0_1_2_3_4),
    TRef.unary (.of main_cst : TRef sig ⟨S_, .f32⟩) main_call2.v1 (broadcastInDim S4x32x96x48x312 ![] bcast_S_S4x32x96x48x312),
    TRef.ternary main_call2.v0 (.of main_v13 : TRef sig ⟨S4x32x96x48x312, .f32⟩) main_call2.v1 main_call2.v2 select,
    unary main_v15 main_v16 ((transpose S4x32x48x96x312 [0, 1, 3, 2, 4] · transposes_S4x32x96x48x312_S4x32x48x96x312_0_1_3_2_4) : (⟨S4x32x96x48x312, .f32⟩ : BufTy).Contents (Elt F) → (⟨S4x32x48x96x312, .f32⟩ : BufTy).Contents (Elt F)) ]

-- fifty binds re-associated: the rewrite under the chain recurses once per statement
set_option maxRecDepth 1024 in
/-- The program is that straight line: the functions' definitions unfolded at their calls and the calls' buffer
    records at their fields, both sides are one chain of steps once sequencing is reassociated. -/
theorem main_eq (c : Dev nD) : main (F := F) c = seq ops := by
  simp only [main, fn_clip.body, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
    binary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., unary_bufs_sub .., nullary_bufs_sub ..,
    unary_bufs_sub .., unary_bufs_sub .., ternary_bufs_sub .., unary_bufs_sub ..⟩

/-- At the compiled mesh, for any float values, from any memory with zero counters: every weakly fair execution of
    the program on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefIndex.lean ====
/-
  The integer part of the reference: the table of column indices `w - d`, its sign test, its clamp, and the gather's
  own treatment of an index — none of which reads the feature maps.

  Over the disparities `d < 48` and the columns `w < 312` the reference forms the signed 32-bit word `w - d`, tests it
  nonnegative (`valid`), clamps it into `[0, 311]` (`clipped`), and hands it to the gather function, which would add
  312 to a negative index (`wrapped`: never, the clamped index is nonnegative), makes each index a one-coordinate
  vector (`start`) and computes the guard `0 ≤ i ≤ 311` reduced by conjunction over the unit axis (`guard`: always
  true). Read at `(d, w)`: the sign test holds exactly when `d ≤ w`; the start index, read signed and clamped as the
  gather clamps it, is `w - d` when `d ≤ w` and `0` otherwise; the guard is `1`.
-/
import proofs.«122404_j59081570125093_2_alg».proof.Proof.Gen.ReferenceIdeal
import Idealize.ShloMosaic.Lib.ValueIdx
import Idealize.ShloMosaic.Lib.Affine
import Idealize.ShloMosaic.PureOps.Reduce
import Idealize.ShloMosaic.Lib.StableHlo.Run

noncomputable section

namespace Cert.ReferenceIdeal.RefIndex

open Cert.ReferenceIdeal Cert.ReferenceIdeal.Gen Idealize.ShloMosaic Idealize.ShloMosaic.ValueIdx

/-! ## The tables -/

/-- The index table `w - d`, as signed 32-bit words. -/
def idx : IVec S48x312 32 :=
  subi
    (broadcastInDim S48x312 ![0, 1] bcast_S1x312_S48x312_0_1 (broadcastInDim S1x312 ![1] bcast_S312_S1x312_1 (iotaInDim S312 32 0)))
    (broadcastInDim S48x312 ![0, 1] bcast_S48x1_S48x312_0_1 (broadcastInDim S48x1 ![0] bcast_S48_S48x1_0 (iotaInDim S48 32 0)))

/-- The sign test `0 ≤ w - d`. -/
def valid : IVec S48x312 1 :=
  cmpi .sge idx (broadcastInDim S48x312 ![] bcast_S_S48x312 (constantI S_ 32 0#32))

/-- The index clamped into `[0, 311]`: `min(311, max(0, w - d))`. -/
def clipped : IVec S48x312 32 :=
  minsi (broadcastInDim S48x312 ![] bcast_S_S48x312 (id (constantI S_ 32 311#32)))
    (maxsi (broadcastInDim S48x312 ![] bcast_S_S48x312 (id (constantI S_ 32 0#32))) idx)

/-- The gather function's wrap of a negative index: `i + 312` where `i < 0`, else `i`. -/
def wrapped : IVec S48x312 32 :=
  select (cmpi .slt clipped (broadcastInDim S48x312 ![] bcast_S_S48x312 (constantI S_ 32 0#32)))
    (addi clipped (broadcastInDim S48x312 ![] bcast_S_S48x312 (constantI S_ 32 312#32))) clipped

/-- The start indices: each index a vector of one coordinate. -/
def start : IVec S48x312x1 32 :=
  broadcastInDim S48x312x1 ![0, 1] bcast_S48x312_S48x312x1_0_1 wrapped

/-- The in-range guard `0 ≤ i ∧ i ≤ 311`, before its reduction over the unit axis. -/
def inRange : IVec S48x312x1 1 :=
  andi (cmpi .sge start (broadcastInDim S48x312x1 ![] bcast_S_S48x312x1 (constantI S_ 32 0#32)))
    (cmpi .sle start (broadcastInDim S48x312x1 ![0, 1, 2] bcast_S1x1x1_S48x312x1_0_1_2
      (broadcastInDim S1x1x1 ![2] bcast_S1_S1x1x1_2 (constantI S1 32 311#32))))

/-- The guard: `inRange` reduced by conjunction over the unit axis, from `true`. -/
def guard : IVec S48x312 1 :=
  Host.reduce IntOp.andi inRange (constantI S_ 1 1#1) reducesTo_S48x312x1_S48x312_d2 h_S_

/-! ## The words at `(d, w)` -/

/-- The index word at `(d, w)`: the column's word minus the disparity's. -/
theorem idx_apply (d : Fin 48) (w : Fin 312) :
    idx (ix2 d w) = IntOp.subi (BitVec.ofNat 32 w.val) (BitVec.ofNat 32 d.val) := rfl

theorem valid_apply (d : Fin 48) (w : Fin 312) : valid (ix2 d w) = IntOp.cmpi .sge (idx (ix2 d w)) 0#32 := rfl

theorem clipped_apply (d : Fin 48) (w : Fin 312) :
    clipped (ix2 d w) = IntOp.minsi 311#32 (IntOp.maxsi 0#32 (idx (ix2 d w))) := rfl

theorem wrapped_apply (d : Fin 48) (w : Fin 312) :
    wrapped (ix2 d w) = Scalar.select (IntOp.cmpi .slt (clipped (ix2 d w)) 0#32)
      (IntOp.addi (clipped (ix2 d w)) 312#32) (clipped (ix2 d w)) := rfl

theorem start_apply (d : Fin 48) (w : Fin 312) (u : Fin 1) : start (ix3 d w u) = wrapped (ix2 d w) := rfl

theorem inRange_apply (d : Fin 48) (w : Fin 312) (u : Fin 1) :
    inRange (ix3 d w u) = IntOp.andi (IntOp.cmpi .sge (start (ix3 d w u)) 0#32) (IntOp.cmpi .sle (start (ix3 d w u)) 311#32) := rfl

/-! ## What the words say -/

section Words
open Idealize.ShloMosaic.Affine

variable (d : Fin 48) (w : Fin 312)

/-- The index word reads, signed, the integer `w - d`. -/
theorem idx_isInt : IsInt (idx (ix2 d w)) ((w.val : Int) - (d.val : Int)) := by
  have hw : IsInt (BitVec.ofNat 32 w.val) (w.val : Int) := Affine.ofNat w.val ⟨rfl, by have := w.isLt; omega⟩
  have hd : IsInt (BitVec.ofNat 32 d.val) (d.val : Int) := Affine.ofNat d.val ⟨rfl, by have := d.isLt; omega⟩
  exact Affine.subi hw hd ⟨rfl, by have := w.isLt; have := d.isLt; omega, by have := w.isLt; have := d.isLt; omega⟩

theorem zero_isInt : IsInt 0#32 0 := Affine.ofNat 0 ⟨rfl, by omega⟩
theorem c311_isInt : IsInt 311#32 311 := Affine.ofNat 311 ⟨rfl, by omega⟩

/-- The clamped word reads `min(311, max(0, w - d))`. -/
theorem clipped_isInt : IsInt (clipped (ix2 d w)) (min 311 (max 0 ((w.val : Int) - (d.val : Int)))) :=
  Affine.minsi c311_isInt (Affine.maxsi zero_isInt (idx_isInt d w) rfl) rfl

/-- The sign test holds exactly when the shifted column exists. -/
theorem valid_iff : valid (ix2 d w) = 1#1 ↔ d.val ≤ w.val := by
  have h := idx_isInt d w
  unfold IsInt at h
  rw [valid_apply, IntOp.cmpi_sge, h, show (0#32 : BitVec 32).toInt = 0 from by decide]
  omega

/-- The clamped index is not negative, so the wrap leaves it. -/
theorem wrapped_eq : wrapped (ix2 d w) = clipped (ix2 d w) := by
  have hf : Fails (Scalar.cmpi .slt (clipped (ix2 d w)) 0#32) :=
    Affine.slt_fails (clipped_isInt d w) zero_isInt (by omega)
  rw [wrapped_apply]
  exact if_neg hf

/-- The start index, read signed and clamped to the last column as the gather clamps it: `w - d` where the shifted
    column exists, `0` where it does not. -/
theorem start_toNat (u : Fin 1) :
    min (start (ix3 d w u)).toInt.toNat 311 = if d.val ≤ w.val then w.val - d.val else 0 := by
  have h := clipped_isInt d w
  unfold IsInt at h
  rw [start_apply, wrapped_eq, h]
  have := w.isLt; have := d.isLt
  split <;> omega

/-- Every start index is in range. -/
theorem inRange_eq_one (u : Fin 1) : inRange (ix3 d w u) = 1#1 := by
  rw [inRange_apply, start_apply, wrapped_eq]
  exact Affine.andi_holds (Affine.sge_holds (clipped_isInt d w) zero_isInt (by omega))
    (Affine.sle_holds (clipped_isInt d w) c311_isInt (by omega))

end Words

/-! ## The guard -/

/-- A left fold by conjunction from `1` over words that are all `1` is `1`. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The guard is `1` everywhere: the conjunction, from `true`, of words that are all `1`. -/
theorem guard_eq_one (j : S48x312.Idx) : guard j = 1#1 := by
  unfold guard
  rw [Host.reduce_eq_foldl]
  refine foldl_andi_one inRange (fun i => ?_) _
  obtain ⟨d, w, u, rfl⟩ : ∃ (d : Fin 48) (w : Fin 312) (u : Fin 1), i = ix3 d w u := ⟨i 0, i 1, i 2, eq_ix3 i⟩
  exact inRange_eq_one d w u

end Cert.ReferenceIdeal.RefIndex

end
-- ==== Proof.RefGather.lean ====
/-
  The reference's gather, read at an index.

  The gather takes the right feature map `[4, 32, 96, 312]` and a table `[48, 312, 1]` of one-coordinate start
  indices, and returns `[4, 32, 96, 48, 312]`: the first three result axes are offsets into the operand's first three
  axes (whole slices), the operand's last axis is collapsed (slices of one column) and is the one the start index
  names, and the result's last two axes are the table's. So the result at `(b, c, h, d, w)` is the operand at
  `(b, c, h, s)` with `s` the table's entry at `(d, w, 0)` read as a signed integer and clamped into `[0, 311]`.
-/
import proofs.«122404_j59081570125093_2_alg».proof.Proof.Gen.ReferenceIdeal
import Idealize.ShloMosaic.Lib.ValueIdx
import Idealize.ShloMosaic.Lib.StableHlo.Run

noncomputable section

namespace Cert.ReferenceIdeal.RefGather

open Cert.ReferenceIdeal Cert.ReferenceIdeal.Gen Idealize.ShloMosaic Idealize.ShloMosaic.ValueIdx

/-- The gather's dimension numbers. -/
abbrev G : GatherDims S4x32x96x312 S48x312x1 S4x32x96x48x312 :=
  gather_S4x32x96x312_S48x312x1_S4x32x96x48x312_012_3_n_n_3_2_432961

section Coordinates

variable {k : Nat} (i : IVec S48x312x1 k) (b : Fin 4) (c : Fin 32) (h : Fin 96) (d : Fin 48) (w : Fin 312)

/-- On an operand axis the start index does not name, the slice starts at `0`. -/
theorem start_of_not_mem (j : S4x32x96x48x312.Idx) (a : Fin S4x32x96x312.rank) (ha : a ∉ G.startIndexMap) :
    G.start j i a = 0 := by
  unfold GatherDims.start; rw [dif_neg ha]

/-- On an operand axis that is kept, the offset coordinate is the result's coordinate on the offset axis in its place. -/
theorem offCoord_of_mem (j : S4x32x96x48x312.Idx) (a : Fin S4x32x96x312.rank) (ha : a ∈ G.sKept) :
    G.offCoord j a
      = (j (G.offsetDims[G.sKept.idxOf a]'(by rw [G.offset_length]; exact List.idxOf_lt_length_iff.2 ha))).val := by
  unfold GatherDims.offCoord; rw [dif_pos ha]

/-- The operand's first three coordinates are the result's first three. -/
theorem coord0 : G.start (ix5 b c h d w) i 0 + G.offCoord (ix5 b c h d w) 0 = b.val := by
  rw [start_of_not_mem i _ 0 (by decide), offCoord_of_mem _ 0 (by decide), Nat.zero_add]; rfl
theorem coord1 : G.start (ix5 b c h d w) i 1 + G.offCoord (ix5 b c h d w) 1 = c.val := by
  rw [start_of_not_mem i _ 1 (by decide), offCoord_of_mem _ 1 (by decide), Nat.zero_add]; rfl
theorem coord2 : G.start (ix5 b c h d w) i 2 + G.offCoord (ix5 b c h d w) 2 = h.val := by
  rw [start_of_not_mem i _ 2 (by decide), offCoord_of_mem _ 2 (by decide), Nat.zero_add]; rfl

/-- The operand's last coordinate is the start index at `(d, w, 0)`, read signed and clamped to the last column. -/
theorem coord3 : G.start (ix5 b c h d w) i 3 + G.offCoord (ix5 b c h d w) 3
    = min (i (ix3 d w (0 : Fin 1))).toInt.toNat 311 := by
  rw [GatherDims.offCoord_eq_zero _ _ _ (by decide), Nat.add_zero]
  unfold GatherDims.start
  rw [dif_pos (show (3 : Fin S4x32x96x312.rank) ∈ G.startIndexMap from List.mem_singleton.mpr rfl)]
  have hsi : G.siIdx (ix5 b c h d w) ⟨List.idxOf (3 : Fin S4x32x96x312.rank) G.startIndexMap,
      List.idxOf_lt_length_iff.2 (List.mem_singleton.mpr rfl)⟩ = ix3 d w (0 : Fin 1) := by
    funext e; refine Fin.ext ?_
    match e with
    | ⟨0, _⟩ => rfl
    | ⟨1, _⟩ => rfl
    | ⟨2, _⟩ => rfl
  rw [hsi]
  rfl

end Coordinates

/-- The gather at `(b, c, h, d, w)` is the operand at `(b, c, h, s)`, `s` the start index at `(d, w, 0)` read signed
    and clamped to the operand's last column. -/
theorem gather_apply {α : Type} {k : Nat} (x : S4x32x96x312.Idx → α) (i : IVec S48x312x1 k)
    (b : Fin 4) (c : Fin 32) (h : Fin 96) (d : Fin 48) (w : Fin 312) :
    Host.gather G x i (ix5 b c h d w)
      = x (ix4 b c h ⟨min (i (ix3 d w (0 : Fin 1))).toInt.toNat 311, by omega⟩) := by
  unfold Host.gather
  congr 1
  funext a
  refine Fin.ext ?_
  show G.start (ix5 b c h d w) i a + G.batchCoord (ix5 b c h d w) a + G.offCoord (ix5 b c h d w) a = _
  rw [GatherDims.batchCoord_eq_zero _ _ _ List.not_mem_nil, Nat.add_zero]
  match a with
  | ⟨0, _⟩ => exact coord0 i b c h d w
  | ⟨1, _⟩ => exact coord1 i b c h d w
  | ⟨2, _⟩ => exact coord2 i b c h d w
  | ⟨3, _⟩ => exact coord3 i b c h d w

end Cert.ReferenceIdeal.RefGather

end
-- ==== Proof.RefTerm.lean ====
/-
  The reference's composed term.

  The run of the reference (its fifty operations, in order) leaves at the result buffer the operations' composed
  term of the two arguments: the select, by the sign test of the index table broadcast over the feature axes, between
  the left map minus the gathered right map and the pad value, with the disparity and row axes exchanged. The integer
  tables it is built from (the sign test, the gather's guard and its start indices) are those of the index module;
  they do not read the arguments.
-/
import proofs.«122404_j59081570125093_2_alg».proof.Proof.RefRun
import proofs.«122404_j59081570125093_2_alg».proof.Proof.RefIndex
import proofs.«122404_j59081570125093_2_alg».proof.Proof.RefGather

noncomputable section

namespace Cert.ReferenceIdeal.RefTerm

open Cert.ReferenceIdeal Cert.ReferenceIdeal.Gen Idealize.ShloMosaic Idealize.ShloMosaic.TcCoe Idealize.SL.Sem
  Idealize.ShloMosaic.StableHlo
open Cert.ReferenceIdeal.RefRun Cert.ReferenceIdeal.RefIndex Cert.ReferenceIdeal.RefGather

variable {F : FTy → Type} [FloatOps F]

/-- What the reference computes from the two arguments' contents: the operations' composed term. The integer
    tables (`valid`, `guard`, `start`) do not read the arguments. -/
def refTerm (l r : FVec F S4x32x96x312 .f32) : FVec F S4x32x48x96x312 .f32 :=
  transpose S4x32x48x96x312 [0, 1, 3, 2, 4]
    (select
      (broadcastInDim S4x32x96x48x312 ![0, 1, 2, 3, 4] bcast_S1x1x1x48x312_S4x32x96x48x312_0_1_2_3_4
        (broadcastInDim S1x1x1x48x312 ![3, 4] bcast_S48x312_S1x1x1x48x312_3_4 valid))
      (subf
        (broadcastInDim S4x32x96x48x312 ![0, 1, 2, 3, 4] bcast_S4x32x96x1x312_S4x32x96x48x312_0_1_2_3_4
          (broadcastInDim S4x32x96x1x312 ![0, 1, 2, 4] bcast_S4x32x96x312_S4x32x96x1x312_0_1_2_4 l))
        (select (broadcastInDim S4x32x96x48x312 ![3, 4] bcast_S48x312_S4x32x96x48x312_3_4 guard)
          (Host.gather G r start)
          (broadcastInDim S4x32x96x48x312 ![] bcast_S_S4x32x96x48x312 (constant S_ .f32 0x7FC00000#32))))
      (broadcastInDim S4x32x96x48x312 ![] bcast_S_S4x32x96x48x312 (constant S_ .f32 0x3F800000#32)))
    transposes_S4x32x96x48x312_S4x32x48x96x312_0_1_3_2_4

attribute [local irreducible] Host.reduce Host.gather in
set_option maxRecDepth 8192 in
/-- The fold at the result buffer is `refTerm` of the arguments' contents: each operation's result at its own
    buffer is its function's value and at any other buffer what was there; the transports of a value between a
    function's typed view of a buffer and the buffer are the identity; and what is left is the composed term with
    the tables unfolded, symbol for symbol. The reduction and the gather are kept folded meanwhile (the equation
    never looks inside them). -/
theorem out_eq (V : Valuation τ sig (Elt F)) :
    after ops V (main_v16 : DevRef τ sig)
      = refTerm (V (main_arg0 : DevRef τ sig)) (V (main_arg1 : DevRef τ sig)) := by
  after_results_simp
  simp only [TRef.toBuf, TRef.ofBuf, cast_eq]
  unfold refTerm valid RefIndex.guard inRange start wrapped clipped idx
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

end Cert.ReferenceIdeal.RefTerm

end
-- ==== Proof.RefValue.lean ====
/-
  The reference's value: the cost volume.

  The reference's composed term, read at `(b, c, d, h, w)`: the transpose exchanges the disparity and row
  coordinates; the broadcasts read their tables at `(d, w)` and the left map at `(b, c, h, w)`; the guard of the
  gather is `1`, so the gathered entry is the right map at `(b, c, h, s)` with `s` the start index read signed and
  clamped, which is column `w - d` where `d ≤ w`; the sign test holds exactly there. So the entry is
  `l[b, c, h, w] - r[b, c, h, w - d]` where `d ≤ w` and the pad value `1` elsewhere: the cost volume. The run of the
  reference then ends with the cost volume of its arguments at the result buffer and the arguments unchanged.
-/
import proofs.«122404_j59081570125093_2_alg».proof.Proof.RefTerm
import proofs.«122404_j59081570125093_2_alg».proof.Proof.CostVolume
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.RefRun Cert.ReferenceIdeal.RefIndex Cert.ReferenceIdeal.RefGather Cert.ReferenceIdeal.RefTerm

/-! ## The layout operations at an index -/

section Layout

variable {α : Type} (b : Fin 4) (c : Fin 32) (h : Fin 96) (d : Fin 48) (w : Fin 312)

/-- A table over `(d, w)` given three leading unit axes and then broadcast over the feature axes reads, at
    `(b, c, h, d, w)`, the table at `(d, w)`. -/
theorem bcast_unit_table_apply (v : S48x312.Idx → α) :
    broadcastInDim S4x32x96x48x312 ![0, 1, 2, 3, 4] bcast_S1x1x1x48x312_S4x32x96x48x312_0_1_2_3_4
        (broadcastInDim S1x1x1x48x312 ![3, 4] bcast_S48x312_S1x1x1x48x312_3_4 v) (ix5 b c h d w)
      = v (ix2 d w) :=
  (broadcastInDim_apply _ _ _ (ix5 b c h d w) (ix5 (0 : Fin 1) (0 : Fin 1) (0 : Fin 1) d w)
      (fun a => match a with | ⟨0, _⟩ => rfl | ⟨1, _⟩ => rfl | ⟨2, _⟩ => rfl | ⟨3, _⟩ => rfl | ⟨4, _⟩ => rfl)).trans
    (broadcastInDim_apply _ _ _ _ (ix2 d w) (fun a => match a with | ⟨0, _⟩ => rfl | ⟨1, _⟩ => rfl))

/-- A table over `(d, w)` broadcast over the feature axes reads, at `(b, c, h, d, w)`, the table at `(d, w)`. -/
theorem bcast_table_apply (v : S48x312.Idx → α) :
    broadcastInDim S4x32x96x48x312 ![3, 4] bcast_S48x312_S4x32x96x48x312_3_4 v (ix5 b c h d w) = v (ix2 d w) :=
  broadcastInDim_apply _ _ _ _ (ix2 d w) (fun a => match a with | ⟨0, _⟩ => rfl | ⟨1, _⟩ => rfl)

/-- A feature map given a unit disparity axis and then broadcast over the disparities reads, at `(b, c, h, d, w)`,
    the map at `(b, c, h, w)`. -/
theorem bcast_map_apply (l : S4x32x96x312.Idx → α) :
    broadcastInDim S4x32x96x48x312 ![0, 1, 2, 3, 4] bcast_S4x32x96x1x312_S4x32x96x48x312_0_1_2_3_4
        (broadcastInDim S4x32x96x1x312 ![0, 1, 2, 4] bcast_S4x32x96x312_S4x32x96x1x312_0_1_2_4 l) (ix5 b c h d w)
      = l (ix4 b c h w) :=
  (broadcastInDim_apply _ _ _ (ix5 b c h d w) (ix5 b c h (0 : Fin 1) w)
      (fun a => match a with | ⟨0, _⟩ => rfl | ⟨1, _⟩ => rfl | ⟨2, _⟩ => rfl | ⟨3, _⟩ => rfl | ⟨4, _⟩ => rfl)).trans
    (broadcastInDim_apply _ _ _ _ (ix4 b c h w)
      (fun a => match a with | ⟨0, _⟩ => rfl | ⟨1, _⟩ => rfl | ⟨2, _⟩ => rfl | ⟨3, _⟩ => rfl))

/-- The exchange of the disparity and row axes reads, at `(b, c, d, h, w)`, the operand at `(b, c, h, d, w)`. -/
theorem transpose_dh_apply (x : S4x32x96x48x312.Idx → α) :
    transpose S4x32x48x96x312 [0, 1, 3, 2, 4] x transposes_S4x32x96x48x312_S4x32x48x96x312_0_1_3_2_4 (ix5 b c d h w)
      = x (ix5 b c h d w) :=
  transpose_apply _ x _ _ _
    (fun e => match e with | ⟨0, _⟩ => rfl | ⟨1, _⟩ => rfl | ⟨2, _⟩ => rfl | ⟨3, _⟩ => rfl | ⟨4, _⟩ => rfl)

end Layout

/-! ## The composed term at an index -/

/-- The composed term at `(b, c, d, h, w)`: the choice, by the sign test at `(d, w)`, between the left map at column
    `w` minus the guarded gather of the right map, and the pad value. -/
theorem refTerm_apply (l r : FVec Ideal S4x32x96x312 .f32) (b : Fin 4) (c : Fin 32) (d : Fin 48) (h : Fin 96) (w : Fin 312) :
    refTerm l r (ix5 b c d h w)
      = Scalar.select (valid (ix2 d w))
          (l (ix4 b c h w)
            - Scalar.select (guard (ix2 d w)) (Host.gather G r start (ix5 b c h d w)) (Ideal.ofBits .f32 0x7FC00000#32))
          (Ideal.ofBits .f32 0x3F800000#32) := by
  unfold refTerm
  rw [transpose_dh_apply, select_apply, bcast_unit_table_apply, subf_apply, bcast_map_apply, select_apply,
    bcast_table_apply]
  rfl

/-- The composed term is the cost volume. -/
theorem refTerm_eq_cost (l r : FVec Ideal S4x32x96x312 .f32) : refTerm l r = Cert.CostVolume.cost l r := by
  funext j
  obtain ⟨b, c, d, h, w, rfl⟩ : ∃ (b : Fin 4) (c : Fin 32) (d : Fin 48) (h : Fin 96) (w : Fin 312), j = ix5 b c d h w :=
    ⟨j 0, j 1, j 2, j 3, j 4, eq_ix5 j⟩
  rw [Cert.CostVolume.cost_ix5, refTerm_apply, guard_eq_one, select_one, gather_apply]
  by_cases hd : d.val ≤ w.val
  · have hs : (⟨min (start (ix3 d w (0 : Fin 1))).toInt.toNat 311, by omega⟩ : Fin 312) = ⟨w.val - d.val, by omega⟩ :=
      Fin.ext ((start_toNat d w 0).trans (if_pos hd))
    rw [(valid_iff d w).mpr hd, select_one, Cert.CostVolume.costAt_of_le l r b c d h w hd, hs]
  · rw [eq_zero_of_ne_one (mt (valid_iff d w).mp hd), select_zero,
      Cert.CostVolume.costAt_of_lt l r b c d h w (by omega)]

end Cert.ReferenceIdeal.RefValue

open Idealize.ShloMosaic Idealize.SL.Sem in
/-- At the compiled mesh, from any memory with zero counters: every weakly fair execution of the reference on the
    TensorCores terminates with the cost volume of its two arguments at the result buffer, and the arguments
    unchanged. -/
theorem Cert.ReferenceIdeal.RefValue.run
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v16)
            = Cert.CostVolume.cost (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ hr c =>
      ⟨((hr c Cert.ReferenceIdeal.main_v16).trans (Cert.ReferenceIdeal.RefTerm.out_eq _)).trans
          (Cert.ReferenceIdeal.RefValue.refTerm_eq_cost _ _),
        (hr c Cert.ReferenceIdeal.main_arg0).trans (Cert.ReferenceIdeal.RefTerm.arg0_eq _),
        (hr c Cert.ReferenceIdeal.main_arg1).trans (Cert.ReferenceIdeal.RefTerm.arg1_eq _)⟩)
    (Cert.ReferenceIdeal.RefRun.run_main (F := Ideal) m ρ)

end
-- ==== Proof.lean ====
/-
  A stereo cost volume: the kernel and its reference compute the same function on the extended reals.

  Both programs take a left and a right feature map `l, r : [4, 32, 96, 312]` and produce `[4, 32, 48, 96, 312]`:
      out[b, c, d, h, w] = l[b, c, h, w] - r[b, c, h, w - d]   if d ≤ w,        1.0   otherwise
  (`Cert.CostVolume.cost`).

  The kernel walks the grid `(b, c)`; at each point a loop over the 48 disparities `d` rotates the right slab by `d` along the
  columns, subtracts it from the left slab, and replaces the columns `w < d` — exactly those where the rotation wrapped
  around — by the pad value, storing plane `d` of the output block. A rotation by `d` reads column `(w + 312 - d) mod 312`,
  which is `w - d` on the columns that are kept, so plane `d` is the cost volume's `[b, c, d, :, :]`; the 48 planes tile
  the block and the 128 blocks tile the array (`Cert.KernelIdeal.CostValue.run`).

  The reference builds the column index `w - d`, clips it into `[0, 311]`, gathers the right map along its last axis at
  the clipped index (the gather's out-of-range guard never fires on a clipped index), subtracts from the left map, and
  selects the pad value where `w - d < 0`; on the kept entries the clipped index is `w - d` itself
  (`Cert.ReferenceIdeal.RefValue.run`).

  The only arithmetic is one subtraction per entry, applied on both sides to the same two operands, so the equality needs
  no finiteness: the precondition is never opened. The three frame claims are the runs with their value clause dropped
  (the word-level kernel's is its frame run), and the idealization rewrote nothing, so `preserves` is `True`.
-/
import proofs.«122404_j59081570125093_2_alg».proof.Defs
import proofs.«122404_j59081570125093_2_alg».proof.Proof.Gen.Kernel
import proofs.«122404_j59081570125093_2_alg».proof.Proof.Gen.Kernel.Frame
import proofs.«122404_j59081570125093_2_alg».proof.Proof.Gen.KernelIdeal
import proofs.«122404_j59081570125093_2_alg».proof.Proof.Gen.KernelIdeal.Frame
import proofs.«122404_j59081570125093_2_alg».proof.Proof.Gen.ReferenceIdeal
import proofs.«122404_j59081570125093_2_alg».proof.Proof.Gen.Pre_finite_inputs
import proofs.«122404_j59081570125093_2_alg».proof.Proof.CostVolume
import proofs.«122404_j59081570125093_2_alg».proof.Proof.KernelValue
import proofs.«122404_j59081570125093_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result clause dropped. -/
theorem frame_referenceIdeal : Cert.frame_ReferenceIdeal := fun m ρ _ =>
  (θ_run Cert.ReferenceIdeal.defs _ _).mono (fun _ h c => (h c).2) (Cert.ReferenceIdeal.RefValue.run m ρ)

/-- Nothing was rewritten when the kernel was idealized. -/
theorem preserves : Cert.preserves_Kernel_KernelIdeal := trivial

/-- From memories that agree on the two feature maps, both programs end with the cost volume of those maps. -/
theorem algebraic : Cert.algebraic_KernelIdeal_ReferenceIdeal := by
  intro m ρ m' ρ' _ hagree
  refine ⟨fun c => Cert.CostVolume.cost
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.CostValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
